-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S10000x64 : Shape := ⟨2, ![10000, 64]⟩
abbrev S1000x128 : Shape := ⟨2, ![1000, 128]⟩
abbrev S400x10000 : Shape := ⟨2, ![400, 10000]⟩
abbrev S400x64 : Shape := ⟨2, ![400, 64]⟩
abbrev S400x128 : Shape := ⟨2, ![400, 128]⟩

abbrev nBuf : Space → Nat
  | .hbm => 7
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S10000x128, .f32⟩
  | .hbm, ⟨5, _⟩ => ⟨S10000x64, .f32⟩
  | .hbm, ⟨6, _⟩ => ⟨S10000x64, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S400x10000, .f32⟩
  | .local _ .vmem, ⟨6, _⟩ => ⟨S400x10000, .f32⟩
  | .local _ .vmem, ⟨7, _⟩ => ⟨S10000x128, .f32⟩
  | .local _ .vmem, ⟨8, _⟩ => ⟨S128x64, .f32⟩
  | .local _ .vmem, ⟨9, _⟩ => ⟨S400x64, .f32⟩
  | .local _ .vmem, ⟨10, _⟩ => ⟨S400x64, .f32⟩
  | .local _ .vmem, ⟨11, _⟩ => ⟨S400x10000, .f32⟩
  | .local _ .vmem, ⟨12, _⟩ => ⟨S400x10000, .f32⟩
  | .local _ .vmem, ⟨13, _⟩ => ⟨S10000x64, .f32⟩
  | .local _ .vmem, ⟨14, _⟩ => ⟨S400x64, .f32⟩
  | .local _ .vmem, ⟨15, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S1000x128_S128x128_S1000x128_1_0_0_1_n_n_wf : DotDims.WF S1000x128 S128x128 S1000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x64.size a ≤ S10000x64.size a
  hwx2_2 : ∀ i : grid2.Coords, EltTy.bits .f32 = 32 ∨ (Rect.block (s := S10000x64) S400x64.size (cc2_transform_2 i) (hinb2_2 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S_ : Shape := ⟨0, ![]⟩
abbrev S10000x64 : Shape := ⟨2, ![10000, 64]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x64, .f32⟩
  | .hbm, ⟨10, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelRun.lean ====
/-
  The kernel's run with its result array named.

  @main is three grid computations one after the other, with no host operation between them.  The buffer
  contents at the four boundaries are a fold from the launch memory: after each computation its arrays hold
  what its write-backs leave and every other buffer what it held before.  Every weakly fair execution
  terminates without a fault, and in the final state every unscoped buffer holds the last boundary's
  contents: in particular the result array, and each argument array, which no computation writes.
-/
import proofs.«103829_g54271206752667_cont_9to1c4b_660_4_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last
    boundary's contents and the four argument arrays as launched. -/
theorem run : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.KernelRun

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«103829_g54271206752667_cont_9to1c4b_660_4_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.FeatureProduct.lean ====
/-
  The first of the kernel's three grid computations: the feature product s1 = x · W1.

  The grid has 10 points; point t holds rows 1000 t … 1000 t + 999 of x and the whole of W1, multiplies
  them on the matrix unit into a zero accumulator, and writes the result back as rows 1000 t … 1000 t + 999
  of s1.  At the ideal values that block product, at local row p and column q, is the sum over k of
  x (1000 t + p, k) · W1 (k, q): the entry (1000 t + p, q) of the whole product.  The ten row blocks tile
  the 10000 rows, so the array the computation leaves is the whole product, whatever the contents of the
  two input arrays were when it started.
-/
import proofs.«103829_g54271206752667_cont_9to1c4b_660_4_alg».proof.Proof.Gen.KernelIdeal.Frame
import proofs.«103829_g54271206752667_cont_9to1c4b_660_4_alg».proof.Proof.LibRowBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.FeatureProduct

open Cert.KernelIdeal Cert.KernelIdeal.Gen Cert.Lib.RowBlocks

-- the buffer contents when the computation starts: any
variable (V : (c : Dev nD) → (b : Ref sig .tc) → Buf (Elt Ideal) ((c : Thread nD τ).loc b))

theorem zero_offsets : (![0, 0] : Fin 2 → Nat) = fun _ => 0 := funext fun a => by fin_cases a <;> rfl

/-- The whole product x · W1, as the host computes it. -/
def product (x : Vec Ideal S10000x128 .f32) (w : Vec Ideal S128x128 .f32) : Vec Ideal S10000x128 .f32 :=
  (Host.dotGeneral (F := Ideal) (φ₁ := .f32) (φ₂ := .f32) (DotDims.plain 10000 128 128) none
    (x : FVec Ideal ⟨2, ![10000, 128]⟩ .f32) (w : FVec Ideal ⟨2, ![128, 128]⟩ .f32) : FVec Ideal ⟨2, ![10000, 128]⟩ .f32)

/-- Which block each operand holds at grid point t: x and s1 their t-th block of rows, W1 its only block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of x's block at point t is row 1000 t + p of x. -/
theorem x_block_apply (c : Dev nD) (t : Fin cfg0.N) (p : Fin 1000) (k : Fin 128) (r : Fin 10000)
    (hr : r.val = t.val * 1000 + p.val) :
    (iblk0 V c 0 t : Vec Ideal S1000x128 .f32) (ix2 p k) = (V c main_arg0 : Vec Ideal S10000x128 .f32) (ix2 r k) := by
  obtain ⟨e0, e1, -⟩ := block_indices t
  unfold iblk0
  rw [View.read_apply]
  show V c main_arg0 _ = V c main_arg0 _
  refine congrArg _ ?_
  funext a
  apply Fin.ext
  match a with
  | ⟨0, _⟩ => show win0_0.index t 0 * 1000 + 1 * p.val = r.val; rw [e0, hr]; omega
  | ⟨1, _⟩ => show win0_0.index t 1 * 128 + 1 * k.val = k.val; rw [e1]; omega

/-- W1's block at every point is W1. -/
theorem w_block_apply (c : Dev nD) (t : Fin cfg0.N) (k : Fin 128) (q : Fin 128) :
    (iblk0 V c 1 t : Vec Ideal S128x128 .f32) (ix2 k q) = (V c main_arg2 : Vec Ideal S128x128 .f32) (ix2 k q) := by
  obtain ⟨-, -, e2, e3, -⟩ := block_indices t
  unfold iblk0
  rw [View.read_apply]
  show V c main_arg2 _ = V c main_arg2 _
  refine congrArg _ ?_
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- The block product at local (p, q) is the whole product at (r, q), when the block's row p is row r of x
    and the block's right operand is W1. -/
theorem block_product_apply (xb : Vec Ideal S1000x128 .f32) (wb : Vec Ideal S128x128 .f32)
    (x : Vec Ideal S10000x128 .f32) (w : Vec Ideal S128x128 .f32)
    (p : Fin 1000) (q : Fin 128) (r : Fin 10000)
    (hx : ∀ k : Fin 128, xb (ix2 p k) = x (ix2 r k)) (hw : ∀ k : Fin 128, wb (ix2 k q) = w (ix2 k q)) :
    k0_pay1 (F := Ideal) xb wb (ix2 p q) = product x w (ix2 r q) :=
  matmul_rows_eq_dotGeneral (φ₁ := .f32) (φ₂ := .f32) (ψ₁ := .f32) (ψ₂ := .f32) none none x w xb wb p r q hx hw

/-- What point t writes back is block t of the whole product of the two input arrays. -/
theorem flushed_eq (c : Dev nD) (t : Fin cfg0.N) :
    (dat0 V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S1000x128) zero_offsets, View.ld_unit_zero (S := S128x128) zero_offsets]
  obtain ⟨-, -, -, -, e4, e5⟩ := block_indices t
  have hN : t.val < 10 := lt_of_lt_of_eq t.isLt N_0
  funext j
  have hp : (j 0).val < 1000 := (j 0).isLt
  have hq : (j 1).val < 128 := (j 1).isLt
  rw [View.read_apply]
  show k0_pay1 (iblk0 V c 0 t) (iblk0 V c 1 t) j = product (V c main_arg0) (V c main_arg2) (((cfg0.win 2).blk t).view.emb j)
  have hj : j = ix2 (⟨(j 0).val, hp⟩ : Fin 1000) (⟨(j 1).val, hq⟩ : Fin 128) := by
    funext a; match a with | ⟨0, _⟩ => rfl | ⟨1, _⟩ => rfl
  have he : ((cfg0.win 2).blk t).view.emb j
      = ix2 (⟨t.val * 1000 + (j 0).val, by omega⟩ : Fin 10000) (⟨(j 1).val, hq⟩ : Fin 128) := by
    funext a
    apply Fin.ext
    match a with
    | ⟨0, _⟩ => show win0_2.index t 0 * 1000 + 1 * (j 0).val = t.val * 1000 + (j 0).val; rw [e4]; omega
    | ⟨1, _⟩ => show win0_2.index t 1 * 128 + 1 * (j 1).val = (j 1).val; rw [e5]; omega
  rw [he]
  refine Eq.trans (congrArg _ hj) ?_
  exact block_product_apply _ _ _ _ _ _ _ (fun k => x_block_apply V c t _ k _ rfl) (fun k => w_block_apply V c t k _)

/-- An index of s1 lies in point t's block exactly when its row is one of the block's 1000 rows. -/
theorem mem_block (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_call0_v0).slice (win0_2.rect t)).set ↔ _
  rw [View.set_slice_whole, Rect.mem_set_unit]
  exact Iff.rfl

/-- Every row of s1 is in the block of the point that is its row number divided by 1000. -/
theorem covered (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 10 := N_0
  let t : Fin cfg0.N := ⟨(i 0).val / 1000, by rw [hN]; omega⟩
  obtain ⟨-, -, -, -, e4, e5⟩ := block_indices t
  refine ⟨t, flush0_2 t, ?_⟩
  rw [mem_block]
  intro a
  match a with
  | ⟨0, _⟩ =>
    show win0_2.index t (0 : Fin 2) * 1000 ≤ (i 0).val ∧ (i 0).val < win0_2.index t (0 : Fin 2) * 1000 + 1000
    rw [e4]; show (i 0).val / 1000 * 1000 ≤ (i 0).val ∧ (i 0).val < (i 0).val / 1000 * 1000 + 1000; omega
  | ⟨1, _⟩ =>
    show win0_2.index t (1 : Fin 2) * 128 ≤ (i 1).val ∧ (i 1).val < win0_2.index t (1 : Fin 2) * 128 + 128
    rw [e5]; omega

/-- The array the computation leaves is the whole product of the two arrays it found. -/
theorem final (c : Dev nD) :
    (dat0 V c).arrAt 2 cfg0.N = product (V c main_arg0) (V c main_arg2) :=
  (dat0 V c).arrAt_eq_of_cover 2 (product (V c main_arg0) (V c main_arg2)) (fun t _ => flushed_eq V c t) covered

end Cert.KernelIdeal.FeatureProduct

end
-- ==== Proof.HiddenLayer.lean ====
/-
  The second of the kernel's three grid computations: the hidden layer s2 = max (adj · s1, 0) · W2.

  The grid has 25 points; point t holds rows 400 t … 400 t + 399 of adj, the whole of s1 and the whole of W2.
  It multiplies its rows of adj by s1 into a zero accumulator, takes the maximum with zero entry by entry,
  multiplies the result by W2 into a zero accumulator, and writes that back as rows 400 t … 400 t + 399 of
  s2.  At the ideal values the first block product, at local row p and column k, is the sum over k' of
  adj (400 t + p, k') · s1 (k', k), the entry (400 t + p, k) of adj · s1; the maximum with zero is taken
  entry by entry on both sides; and the second block product at (p, q) is then the sum over k of
  max (adj · s1, 0) (400 t + p, k) · W2 (k, q).  The 25 row blocks tile the 10000 rows, so the array the
  computation leaves is the whole of max (adj · s1, 0) · W2 of the three arrays it found.
-/
import proofs.«103829_g54271206752667_cont_9to1c4b_660_4_alg».proof.Proof.Gen.KernelIdeal.Frame
import proofs.«103829_g54271206752667_cont_9to1c4b_660_4_alg».proof.Proof.LibRowBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.HiddenLayer

open Cert.KernelIdeal Cert.KernelIdeal.Gen Cert.Lib.RowBlocks

-- the buffer contents when the computation starts: any
variable (V : (c : Dev nD) → (b : Ref sig .tc) → Buf (Elt Ideal) ((c : Thread nD τ).loc b))

theorem zero_offsets : (![0, 0] : Fin 2 → Nat) = fun _ => 0 := funext fun a => by fin_cases a <;> rfl

/-- adj · s1, as the host computes it. -/
def aggregate (adj : Vec Ideal S10000x10000 .f32) (s : Vec Ideal S10000x128 .f32) : Vec Ideal S10000x128 .f32 :=
  (Host.dotGeneral (F := Ideal) (φ₁ := .f32) (φ₂ := .f32) (DotDims.plain 10000 10000 128) none
    (adj : FVec Ideal ⟨2, ![10000, 10000]⟩ .f32) (s : FVec Ideal ⟨2, ![10000, 128]⟩ .f32) : FVec Ideal ⟨2, ![10000, 128]⟩ .f32)

/-- The maximum with zero, entry by entry. -/
def rectify (h : Vec Ideal S10000x128 .f32) : Vec Ideal S10000x128 .f32 :=
  (maximumf (F := Ideal) (φ := .f32) (h : FVec Ideal ⟨2, ![10000, 128]⟩ .f32)
    (broadcast ⟨2, ![10000, 128]⟩ (Scalar.ofBits (F := Ideal) .f32 0x00000000#32)) : FVec Ideal ⟨2, ![10000, 128]⟩ .f32)

/-- max (adj · s1, 0) · W2, as the host computes it. -/
def hidden (adj : Vec Ideal S10000x10000 .f32) (s : Vec Ideal S10000x128 .f32) (w : Vec Ideal S128x64 .f32) : Vec Ideal S10000x64 .f32 :=
  (Host.dotGeneral (F := Ideal) (φ₁ := .f32) (φ₂ := .f32) (DotDims.plain 10000 128 64) none
    (rectify (aggregate adj s) : FVec Ideal ⟨2, ![10000, 128]⟩ .f32) (w : FVec Ideal ⟨2, ![128, 64]⟩ .f32) : FVec Ideal ⟨2, ![10000, 64]⟩ .f32)

/-- Which block each operand holds at grid point t: adj and s2 their t-th block of rows, s1 and W2 their only block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of adj's block at point t is row 400 t + p of adj. -/
theorem adj_block_apply (c : Dev nD) (t : Fin cfg1.N) (p : Fin 400) (k : Fin 10000) (r : Fin 10000)
    (hr : r.val = t.val * 400 + p.val) :
    (iblk1 V c 0 t : Vec Ideal S400x10000 .f32) (ix2 p k) = (V c main_arg1 : Vec Ideal S10000x10000 .f32) (ix2 r k) := by
  obtain ⟨e0, e1, -⟩ := block_indices t
  unfold iblk1
  rw [View.read_apply]
  show V c main_arg1 _ = V c main_arg1 _
  refine congrArg _ ?_
  funext a
  apply Fin.ext
  match a with
  | ⟨0, _⟩ => show win1_0.index t 0 * 400 + 1 * p.val = r.val; rw [e0, hr]; omega
  | ⟨1, _⟩ => show win1_0.index t 1 * 10000 + 1 * k.val = k.val; rw [e1]; omega

/-- s1's block at every point is s1. -/
theorem s_block_apply (c : Dev nD) (t : Fin cfg1.N) (k : Fin 10000) (q : Fin 128) :
    (iblk1 V c 1 t : Vec Ideal S10000x128 .f32) (ix2 k q) = (V c main_call0_v0 : Vec Ideal S10000x128 .f32) (ix2 k q) := by
  obtain ⟨-, -, e2, e3, -⟩ := block_indices t
  unfold iblk1
  rw [View.read_apply]
  show V c main_call0_v0 _ = V c main_call0_v0 _
  refine congrArg _ ?_
  funext a
  apply Fin.ext
  match a with
  | ⟨0, _⟩ => show win1_1.index t 0 * 10000 + 1 * k.val = k.val; rw [e2]; omega
  | ⟨1, _⟩ => show win1_1.index t 1 * 128 + 1 * q.val = q.val; rw [e3]; omega

/-- W2's block at every point is W2. -/
theorem w_block_apply (c : Dev nD) (t : Fin cfg1.N) (k : Fin 128) (q : Fin 64) :
    (iblk1 V c 2 t : Vec Ideal S128x64 .f32) (ix2 k q) = (V c main_arg3 : Vec Ideal S128x64 .f32) (ix2 k q) := by
  obtain ⟨-, -, -, -, e4, e5, -⟩ := block_indices t
  unfold iblk1
  rw [View.read_apply]
  show V c main_arg3 _ = V c main_arg3 _
  refine congrArg _ ?_
  funext a
  apply Fin.ext
  match a with
  | ⟨0, _⟩ => show win1_2.index t 0 * 128 + 1 * k.val = k.val; rw [e4]; omega
  | ⟨1, _⟩ => show win1_2.index t 1 * 64 + 1 * q.val = q.val; rw [e5]; omega

/-- The block's result at local (p, q) is the whole hidden layer at (r, q), when the block's row p of adj is
    row r of adj and its other two operands are s1 and W2. -/
theorem block_hidden_apply (ab : Vec Ideal S400x10000 .f32) (sb : Vec Ideal S10000x128 .f32) (wb : Vec Ideal S128x64 .f32)
    (adj : Vec Ideal S10000x10000 .f32) (s : Vec Ideal S10000x128 .f32) (w : Vec Ideal S128x64 .f32)
    (p : Fin 400) (q : Fin 64) (r : Fin 10000)
    (ha : ∀ k : Fin 10000, ab (ix2 p k) = adj (ix2 r k))
    (hs : ∀ (k : Fin 10000) (j : Fin 128), sb (ix2 k j) = s (ix2 k j))
    (hw : ∀ k : Fin 128, wb (ix2 k q) = w (ix2 k q)) :
    k1_pay1 (F := Ideal) ab sb wb (ix2 p q) = hidden adj s w (ix2 r q) := by
  unfold k1_pay1 hidden
  refine matmul_rows_eq_dotGeneral (φ₁ := .f32) (φ₂ := .f32) (ψ₁ := .f32) (ψ₂ := .f32) none none _ w _ wb p r q (fun k => ?_) hw
  -- the maximum with zero is taken entry by entry on both sides
  show FloatOps.maximumf _ _ = FloatOps.maximumf _ _
  refine congrArg (fun a : EReal => FloatOps.maximumf (F := Ideal) (φ := .f32) a _) ?_
  exact matmul_rows_eq_dotGeneral (φ₁ := .f32) (φ₂ := .f32) (ψ₁ := .f32) (ψ₂ := .f32) none none adj s ab _ p r k ha
    (fun k' => (congrFun (shapeCast_self sb _) _).trans (hs k' k))

/-- What point t writes back is block t of the whole hidden layer of the three input arrays. -/
theorem flushed_eq (c : Dev nD) (t : Fin cfg1.N) :
    (dat1 V c).flushed 3 t
      = ((cfg1.win 3).blk t).view.read (Elt Ideal) (hidden (V c main_arg1) (V c main_call0_v0) (V c main_arg3)) := by
  show (cfg1.win 3).cut (grid1.coords t) ((dat1 V c).after 3 t) = _
  rw [after1_3]
  unfold out1_3
  rw [View.canon_unit_zero zero_offsets]
  simp only [View.ld_unit_zero (S := S400x10000) zero_offsets, View.ld_unit_zero (S := S10000x128) zero_offsets,
    View.ld_unit_zero (S := S128x64) zero_offsets]
  obtain ⟨-, -, -, -, -, -, e6, e7⟩ := block_indices t
  have hN : t.val < 25 := lt_of_lt_of_eq t.isLt N_1
  funext j
  have hp : (j 0).val < 400 := (j 0).isLt
  have hq : (j 1).val < 64 := (j 1).isLt
  rw [View.read_apply]
  show k1_pay1 (iblk1 V c 0 t) (iblk1 V c 1 t) (iblk1 V c 2 t) j
    = hidden (V c main_arg1) (V c main_call0_v0) (V c main_arg3) (((cfg1.win 3).blk t).view.emb j)
  have hj : j = ix2 (⟨(j 0).val, hp⟩ : Fin 400) (⟨(j 1).val, hq⟩ : Fin 64) := by
    funext a; match a with | ⟨0, _⟩ => rfl | ⟨1, _⟩ => rfl
  have he : ((cfg1.win 3).blk t).view.emb j
      = ix2 (⟨t.val * 400 + (j 0).val, by omega⟩ : Fin 10000) (⟨(j 1).val, hq⟩ : Fin 64) := by
    funext a
    apply Fin.ext
    match a with
    | ⟨0, _⟩ => show win1_3.index t 0 * 400 + 1 * (j 0).val = t.val * 400 + (j 0).val; rw [e6]; omega
    | ⟨1, _⟩ => show win1_3.index t 1 * 64 + 1 * (j 1).val = (j 1).val; rw [e7]; omega
  rw [he]
  refine Eq.trans (congrArg _ hj) ?_
  exact block_hidden_apply _ _ _ _ _ _ _ _ _ (fun k => adj_block_apply V c t _ k _ rfl) (fun k j' => s_block_apply V c t k j')
    (fun k => w_block_apply V c t k _)

/-- An index of s2 lies in point t's block exactly when its row is one of the block's 400 rows. -/
theorem mem_block (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_call0_v1).slice (win1_3.rect t)).set ↔ _
  rw [View.set_slice_whole, Rect.mem_set_unit]
  exact Iff.rfl

/-- Every row of s2 is in the block of the point that is its row number divided by 400. -/
theorem covered (i : S10000x64.Idx) :
    ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 25 := N_1
  let t : Fin cfg1.N := ⟨(i 0).val / 400, by rw [hN]; omega⟩
  obtain ⟨-, -, -, -, -, -, e6, e7⟩ := block_indices t
  refine ⟨t, flush1_3 t, ?_⟩
  rw [mem_block]
  intro a
  match a with
  | ⟨0, _⟩ =>
    show win1_3.index t (0 : Fin 2) * 400 ≤ (i 0).val ∧ (i 0).val < win1_3.index t (0 : Fin 2) * 400 + 400
    rw [e6]; show (i 0).val / 400 * 400 ≤ (i 0).val ∧ (i 0).val < (i 0).val / 400 * 400 + 400; omega
  | ⟨1, _⟩ =>
    show win1_3.index t (1 : Fin 2) * 64 ≤ (i 1).val ∧ (i 1).val < win1_3.index t (1 : Fin 2) * 64 + 64
    rw [e7]; omega

/-- The array the computation leaves is the whole hidden layer of the three arrays it found. -/
theorem final (c : Dev nD) :
    (dat1 V c).arrAt 3 cfg1.N = hidden (V c main_arg1) (V c main_call0_v0) (V c main_arg3) :=
  (dat1 V c).arrAt_eq_of_cover 3 (hidden (V c main_arg1) (V c main_call0_v0) (V c main_arg3)) (fun t _ => flushed_eq V c t) covered

end Cert.KernelIdeal.HiddenLayer

end
-- ==== Proof.OutputLayer.lean ====
/-
  The third of the kernel's three grid computations: the output layer out = adj · s2.

  The grid has 25 points; point t holds rows 400 t … 400 t + 399 of adj and the whole of s2, multiplies them
  on the matrix unit into a zero accumulator, and writes the result back as rows 400 t … 400 t + 399 of the
  result.  At the ideal values that block product, at local row p and column q, is the sum over k of
  adj (400 t + p, k) · s2 (k, q): the entry (400 t + p, q) of the whole product.  The 25 row blocks tile the
  10000 rows, so the array the computation leaves is the whole product of the two arrays it found.
-/
import proofs.«103829_g54271206752667_cont_9to1c4b_660_4_alg».proof.Proof.Gen.KernelIdeal.Frame
import proofs.«103829_g54271206752667_cont_9to1c4b_660_4_alg».proof.Proof.LibRowBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.OutputLayer

open Cert.KernelIdeal Cert.KernelIdeal.Gen Cert.Lib.RowBlocks

-- the buffer contents when the computation starts: any
variable (V : (c : Dev nD) → (b : Ref sig .tc) → Buf (Elt Ideal) ((c : Thread nD τ).loc b))

theorem zero_offsets : (![0, 0] : Fin 2 → Nat) = fun _ => 0 := funext fun a => by fin_cases a <;> rfl

/-- The whole product adj · s2, as the host computes it. -/
def product (adj : Vec Ideal S10000x10000 .f32) (s : Vec Ideal S10000x64 .f32) : Vec Ideal S10000x64 .f32 :=
  (Host.dotGeneral (F := Ideal) (φ₁ := .f32) (φ₂ := .f32) (DotDims.plain 10000 10000 64) none
    (adj : FVec Ideal ⟨2, ![10000, 10000]⟩ .f32) (s : FVec Ideal ⟨2, ![10000, 64]⟩ .f32) : FVec Ideal ⟨2, ![10000, 64]⟩ .f32)

/-- Which block each operand holds at grid point t: adj and the result their t-th block of rows, s2 its only block. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of adj's block at point t is row 400 t + p of adj. -/
theorem adj_block_apply (c : Dev nD) (t : Fin cfg2.N) (p : Fin 400) (k : Fin 10000) (r : Fin 10000)
    (hr : r.val = t.val * 400 + p.val) :
    (iblk2 V c 0 t : Vec Ideal S400x10000 .f32) (ix2 p k) = (V c main_arg1 : Vec Ideal S10000x10000 .f32) (ix2 r k) := by
  obtain ⟨e0, e1, -⟩ := block_indices t
  unfold iblk2
  rw [View.read_apply]
  show V c main_arg1 _ = V c main_arg1 _
  refine congrArg _ ?_
  funext a
  apply Fin.ext
  match a with
  | ⟨0, _⟩ => show win2_0.index t 0 * 400 + 1 * p.val = r.val; rw [e0, hr]; omega
  | ⟨1, _⟩ => show win2_0.index t 1 * 10000 + 1 * k.val = k.val; rw [e1]; omega

/-- s2's block at every point is s2. -/
theorem s_block_apply (c : Dev nD) (t : Fin cfg2.N) (k : Fin 10000) (q : Fin 64) :
    (iblk2 V c 1 t : Vec Ideal S10000x64 .f32) (ix2 k q) = (V c main_call0_v1 : Vec Ideal S10000x64 .f32) (ix2 k q) := by
  obtain ⟨-, -, e2, e3, -⟩ := block_indices t
  unfold iblk2
  rw [View.read_apply]
  show V c main_call0_v1 _ = V c main_call0_v1 _
  refine congrArg _ ?_
  funext a
  apply Fin.ext
  match a with
  | ⟨0, _⟩ => show win2_1.index t 0 * 10000 + 1 * k.val = k.val; rw [e2]; omega
  | ⟨1, _⟩ => show win2_1.index t 1 * 64 + 1 * q.val = q.val; rw [e3]; omega

/-- The block product at local (p, q) is the whole product at (r, q), when the block's row p is row r of adj
    and the block's right operand is s2. -/
theorem block_product_apply (ab : Vec Ideal S400x10000 .f32) (sb : Vec Ideal S10000x64 .f32)
    (adj : Vec Ideal S10000x10000 .f32) (s : Vec Ideal S10000x64 .f32)
    (p : Fin 400) (q : Fin 64) (r : Fin 10000)
    (ha : ∀ k : Fin 10000, ab (ix2 p k) = adj (ix2 r k)) (hs : ∀ k : Fin 10000, sb (ix2 k q) = s (ix2 k q)) :
    k2_pay1 (F := Ideal) ab sb (ix2 p q) = product adj s (ix2 r q) := by
  unfold k2_pay1 product
  exact matmul_rows_eq_dotGeneral (φ₁ := .f32) (φ₂ := .f32) (ψ₁ := .f32) (ψ₂ := .f32) none none adj s ab _ p r q ha
    (fun k => (congrFun (shapeCast_self sb _) _).trans (hs k))

/-- What point t writes back is block t of the whole product of the two input arrays. -/
theorem flushed_eq (c : Dev nD) (t : Fin cfg2.N) :
    (dat2 V c).flushed 2 t
      = ((cfg2.win 2).blk t).view.read (Elt Ideal) (product (V c main_arg1) (V c main_call0_v1)) := by
  show (cfg2.win 2).cut (grid2.coords t) ((dat2 V c).after 2 t) = _
  rw [after2_2]
  unfold out2_2
  rw [View.canon_unit_zero zero_offsets]
  simp only [View.ld_unit_zero (S := S400x10000) zero_offsets, View.ld_unit_zero (S := S10000x64) zero_offsets]
  obtain ⟨-, -, -, -, e4, e5⟩ := block_indices t
  have hN : t.val < 25 := lt_of_lt_of_eq t.isLt N_2
  funext j
  have hp : (j 0).val < 400 := (j 0).isLt
  have hq : (j 1).val < 64 := (j 1).isLt
  rw [View.read_apply]
  show k2_pay1 (iblk2 V c 0 t) (iblk2 V c 1 t) j = product (V c main_arg1) (V c main_call0_v1) (((cfg2.win 2).blk t).view.emb j)
  have hj : j = ix2 (⟨(j 0).val, hp⟩ : Fin 400) (⟨(j 1).val, hq⟩ : Fin 64) := by
    funext a; match a with | ⟨0, _⟩ => rfl | ⟨1, _⟩ => rfl
  have he : ((cfg2.win 2).blk t).view.emb j
      = ix2 (⟨t.val * 400 + (j 0).val, by omega⟩ : Fin 10000) (⟨(j 1).val, hq⟩ : Fin 64) := by
    funext a
    apply Fin.ext
    match a with
    | ⟨0, _⟩ => show win2_2.index t 0 * 400 + 1 * (j 0).val = t.val * 400 + (j 0).val; rw [e4]; omega
    | ⟨1, _⟩ => show win2_2.index t 1 * 64 + 1 * (j 1).val = (j 1).val; rw [e5]; omega
  rw [he]
  refine Eq.trans (congrArg _ hj) ?_
  exact block_product_apply _ _ _ _ _ _ _ (fun k => adj_block_apply V c t _ k _ rfl) (fun k => s_block_apply V c t k _)

/-- An index of the result lies in point t's block exactly when its row is one of the block's 400 rows. -/
theorem mem_block (t : Fin cfg2.N) (i : S10000x64.Idx) :
    i ∈ ((cfg2.win 2).blk t).view.set ↔ ∀ a : Fin 2, win2_2.index t a * S400x64.size a ≤ (i a).val ∧ (i a).val < win2_2.index t a * S400x64.size a + S400x64.size a := by
  show i ∈ ((View.whole main_v0).slice (win2_2.rect t)).set ↔ _
  rw [View.set_slice_whole, Rect.mem_set_unit]
  exact Iff.rfl

/-- Every row of the result is in the block of the point that is its row number divided by 400. -/
theorem covered (i : S10000x64.Idx) :
    ∃ t : Fin cfg2.N, (cfg2.win 2).flush t = true ∧ i ∈ ((cfg2.win 2).blk t).view.set := by
  have hi0 : (i 0).val < 10000 := (i 0).isLt
  have hi1 : (i 1).val < 64 := (i 1).isLt
  have hN : cfg2.N = 25 := N_2
  let t : Fin cfg2.N := ⟨(i 0).val / 400, by rw [hN]; omega⟩
  obtain ⟨-, -, -, -, e4, e5⟩ := block_indices t
  refine ⟨t, flush2_2 t, ?_⟩
  rw [mem_block]
  intro a
  match a with
  | ⟨0, _⟩ =>
    show win2_2.index t (0 : Fin 2) * 400 ≤ (i 0).val ∧ (i 0).val < win2_2.index t (0 : Fin 2) * 400 + 400
    rw [e4]; show (i 0).val / 400 * 400 ≤ (i 0).val ∧ (i 0).val < (i 0).val / 400 * 400 + 400; omega
  | ⟨1, _⟩ =>
    show win2_2.index t (1 : Fin 2) * 64 ≤ (i 1).val ∧ (i 1).val < win2_2.index t (1 : Fin 2) * 64 + 64
    rw [e5]; omega

/-- The array the computation leaves is the whole product of the two arrays it found. -/
theorem final (c : Dev nD) :
    (dat2 V c).arrAt 2 cfg2.N = product (V c main_arg1) (V c main_call0_v1) :=
  (dat2 V c).arrAt_eq_of_cover 2 (product (V c main_arg1) (V c main_call0_v1)) (fun t _ => flushed_eq V c t) covered

end Cert.KernelIdeal.OutputLayer

end
-- ==== Proof.KernelValue.lean ====
/-
  The kernel's result as one function of its four arguments, at the ideal values.

  The three grid computations are chained through two intermediate arrays: the first leaves s1 = x · W1, the
  second reads s1 and leaves s2 = max (adj · s1, 0) · W2, the third reads s2 and leaves the result adj · s2.
  Each computation's array is the function of the arrays it FOUND; no computation writes an argument array
  or an intermediate it only reads, so the arrays each one finds are the launch contents of the arguments
  and what the computation before it left.  Composed: the result is adj · (max (adj · (x · W1), 0) · W2).
-/
import proofs.«103829_g54271206752667_cont_9to1c4b_660_4_alg».proof.Proof.KernelRun
import proofs.«103829_g54271206752667_cont_9to1c4b_660_4_alg».proof.Proof.FeatureProduct
import proofs.«103829_g54271206752667_cont_9to1c4b_660_4_alg».proof.Proof.HiddenLayer
import proofs.«103829_g54271206752667_cont_9to1c4b_660_4_alg».proof.Proof.OutputLayer

noncomputable section

namespace Cert.KernelIdeal.KernelValue

open Cert.KernelIdeal Cert.KernelIdeal.Gen
open Idealize.ShloMosaic Idealize.ShloMosaic.TcCoe Idealize.SL.Sem
open Idealize.ShloMosaic.Pipeline (Dat)

/-- adj · (max (adj · (x · W1), 0) · W2). -/
def result (x : Vec Ideal S10000x128 .f32) (adj : Vec Ideal S10000x10000 .f32) (w1 : Vec Ideal S128x128 .f32)
    (w2 : Vec Ideal S128x64 .f32) : Vec Ideal S10000x64 .f32 :=
  OutputLayer.product adj (HiddenLayer.hidden adj (FeatureProduct.product x w1) w2)

variable (m : (ℓ : Loc nD τ sig) → Buf (Elt Ideal) ℓ) (ρ : Dev nD → PrngReg)

/-- After the first computation adj is as launched: the first computation does not touch it. -/
theorem adj_after_first (c : Dev nD) : V1 m ρ c main_arg1 = m ((c : Thread nD τ).loc main_arg1) :=
  W1_of_ne m ρ c main_arg1 (by decide)

/-- After the first computation W2 is as launched: the first computation does not touch it. -/
theorem w2_after_first (c : Dev nD) : V1 m ρ c main_arg3 = m ((c : Thread nD τ).loc main_arg3) :=
  W1_of_ne m ρ c main_arg3 (by decide)

/-- After the first computation s1 is x · W1 of the launch contents. -/
theorem s1_after_first (c : Dev nD) :
    V1 m ρ c main_call0_v0 = FeatureProduct.product (m ((c : Thread nD τ).loc main_arg0)) (m ((c : Thread nD τ).loc main_arg2)) :=
  (W1_arr m ρ c 2).trans (FeatureProduct.final (V0 m ρ) c)

/-- After the second computation adj is as launched: the second computation only reads it. -/
theorem adj_after_second (c : Dev nD) : V2 m ρ c main_arg1 = m ((c : Thread nD τ).loc main_arg1) :=
  ((W2_arr m ρ c 0).trans (((dat1 (V1 m ρ) c).arrAt_in 0 rfl _).trans (A_eq1 (V1 m ρ) c 0))).trans (adj_after_first m ρ c)

/-- After the second computation s2 is max (adj · s1, 0) · W2 of the launch contents. -/
theorem s2_after_second (c : Dev nD) :
    V2 m ρ c main_call0_v1 = HiddenLayer.hidden (m ((c : Thread nD τ).loc main_arg1))
      (FeatureProduct.product (m ((c : Thread nD τ).loc main_arg0)) (m ((c : Thread nD τ).loc main_arg2)))
      (m ((c : Thread nD τ).loc main_arg3)) := by
  refine (W2_arr m ρ c 3).trans ((HiddenLayer.final (V1 m ρ) c).trans ?_)
  rw [adj_after_first m ρ c, s1_after_first m ρ c, w2_after_first m ρ c]

/-- After the third computation the result array is the composed function of the launch contents. -/
theorem result_after_third (c : Dev nD) :
    W3 m ρ c (Proc.devRef .tc main_v0) = result (m ((c : Thread nD τ).loc main_arg0)) (m ((c : Thread nD τ).loc main_arg1))
      (m ((c : Thread nD τ).loc main_arg2)) (m ((c : Thread nD τ).loc main_arg3)) := by
  refine (W3_arr m ρ c 2).trans ((OutputLayer.final (V2 m ρ) c).trans ?_)
  rw [adj_after_second m ρ c, s2_after_second m ρ c]
  rfl

/-- The kernel's run: the result array at the composed function of the arguments, the arguments unchanged. -/
theorem run : θ_run defs (onTc (τ := τ) (main (F := Ideal))) ⟨m, fun _ => 0, ρ⟩ (fun r => ∀ c : Dev nD,
      r.2.mem ((c.tc : Thread nD τ).loc main_v0) = result (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_after_third m ρ c), (h c).2⟩) (KernelRun.run m ρ)

end Cert.KernelIdeal.KernelValue

end
-- ==== Proof.ReferenceValue.lean ====
/-
  The reference's result is the kernel's function of the four arguments.

  The reference computes x · W1, then adj · (x · W1), then the maximum with a zero array entry by entry, then
  the product with W2, then the product with adj: the same five steps, in the same order and association, that
  the kernel's three grid computations compose.  Its four `dot_general`s have the plain dimension numbers
  "rows × contraction times contraction × columns", and the zero array it compares with is the zero word
  broadcast from a scalar, which reads the zero word at every index.  So the two terms are one term.
-/
import proofs.«103829_g54271206752667_cont_9to1c4b_660_4_alg».proof.Proof.Gen.ReferenceIdeal.Run
import proofs.«103829_g54271206752667_cont_9to1c4b_660_4_alg».proof.Proof.KernelValue

noncomputable section

namespace Cert.ReferenceIdeal.RefValue

open Cert.ReferenceIdeal Cert.ReferenceIdeal.Gen
open Idealize.ShloMosaic Idealize.ShloMosaic.TcCoe Idealize.SL.Sem

/-- The four products' dimension numbers are the plain ones. -/
theorem dims_x_w1 : dot_S10000x128_S128x128_S10000x128_1_0_0_1_n_n = DotDims.plain 10000 128 128 := rfl
theorem dims_adj_s1 : dot_S10000x10000_S10000x128_S10000x128_1_0_0_1_n_n = DotDims.plain 10000 10000 128 := rfl
theorem dims_h_w2 : dot_S10000x128_S128x64_S10000x64_1_0_0_1_n_n = DotDims.plain 10000 128 64 := rfl
theorem dims_adj_s2 : dot_S10000x10000_S10000x64_S10000x64_1_0_0_1_n_n = DotDims.plain 10000 10000 64 := rfl

/-- The zero array of the maximum: a scalar zero word broadcast to every index. -/
theorem zero_array :
    broadcastInDim S10000x128 ![] bcast_S_S10000x128 (constant (F := Ideal) S_ .f32 0x00000000#32)
      = broadcast ⟨2, ![10000, 128]⟩ (Scalar.ofBits (F := Ideal) .f32 0x00000000#32) := by
  funext i
  exact broadcastInDim_apply _ bcast_S_S10000x128 _ i (fun a => a.elim0) (fun a => a.elim0)

/-- The reference's composed term is the kernel's composed function, of any four arrays. -/
theorem result_eq (x0 : Vec Ideal S10000x128 .f32) (x1 : Vec Ideal S10000x10000 .f32) (x2 : Vec Ideal S128x128 .f32)
    (x3 : Vec Ideal S128x64 .f32) :
    Host.dotGeneral (F := Ideal) (φ₁ := .f32) (φ₂ := .f32) dot_S10000x10000_S10000x64_S10000x64_1_0_0_1_n_n none x1
        (Host.dotGeneral (F := Ideal) (φ₁ := .f32) (φ₂ := .f32) dot_S10000x128_S128x64_S10000x64_1_0_0_1_n_n none
          (maximumf (F := Ideal) (φ := .f32)
            (Host.dotGeneral (F := Ideal) (φ₁ := .f32) (φ₂ := .f32) dot_S10000x10000_S10000x128_S10000x128_1_0_0_1_n_n none x1
              (Host.dotGeneral (F := Ideal) (φ₁ := .f32) (φ₂ := .f32) dot_S10000x128_S128x128_S10000x128_1_0_0_1_n_n none x0 x2))
            (broadcastInDim S10000x128 ![] bcast_S_S10000x128 (constant (F := Ideal) S_ .f32 0x00000000#32))) x3)
      = (Cert.KernelIdeal.KernelValue.result x0 x1 x2 x3 : FVec Ideal S10000x64 .f32) := by
  rw [zero_array, dims_x_w1, dims_adj_s1, dims_h_w2, dims_adj_s2]
  rfl

end Cert.ReferenceIdeal.RefValue

end
-- ==== Proof.lean ====
/-
  A two-layer graph convolution, out = adj · (max (adj · (x · W1), 0) · W2), computed by three grid
  computations on the matrix unit, against the same expression computed on the host by four matrix products
  and a maximum with zero.

  At the ideal values — floats extended reals, every operation exact, a change of float format the identity —
  a matrix product into a zero accumulator is the plain sum over the contraction index, on the matrix unit and
  on the host alike, and a product computed by blocks of rows is the whole product.  Both programs apply the
  same five steps in the same order and association, so their results are one function of the four arguments:
  no rearrangement of a sum and no finiteness of the inputs is used.

  The three frames: each kernel program by its generated frame over the three computations; the reference by
  its generated run with the result dropped.  The kernel's idealization rewrote no operation, so there is
  nothing to preserve.
-/
import proofs.«103829_g54271206752667_cont_9to1c4b_660_4_alg».proof.Defs
import proofs.«103829_g54271206752667_cont_9to1c4b_660_4_alg».proof.Proof.Gen.Kernel
import proofs.«103829_g54271206752667_cont_9to1c4b_660_4_alg».proof.Proof.Gen.Kernel.Skeleton
import proofs.«103829_g54271206752667_cont_9to1c4b_660_4_alg».proof.Proof.Gen.Kernel.Launch
import proofs.«103829_g54271206752667_cont_9to1c4b_660_4_alg».proof.Proof.Gen.Kernel.Points
import proofs.«103829_g54271206752667_cont_9to1c4b_660_4_alg».proof.Proof.Gen.Kernel.Frame
import proofs.«103829_g54271206752667_cont_9to1c4b_660_4_alg».proof.Proof.Gen.KernelIdeal
import proofs.«103829_g54271206752667_cont_9to1c4b_660_4_alg».proof.Proof.Gen.KernelIdeal.Skeleton
import proofs.«103829_g54271206752667_cont_9to1c4b_660_4_alg».proof.Proof.Gen.KernelIdeal.Launch
import proofs.«103829_g54271206752667_cont_9to1c4b_660_4_alg».proof.Proof.Gen.KernelIdeal.Points
import proofs.«103829_g54271206752667_cont_9to1c4b_660_4_alg».proof.Proof.Gen.KernelIdeal.Frame
import proofs.«103829_g54271206752667_cont_9to1c4b_660_4_alg».proof.Proof.Gen.ReferenceIdeal
import proofs.«103829_g54271206752667_cont_9to1c4b_660_4_alg».proof.Proof.Gen.Pre_finite_inputs
import proofs.«103829_g54271206752667_cont_9to1c4b_660_4_alg».proof.Proof.Gen.ReferenceIdeal.Run
import proofs.«103829_g54271206752667_cont_9to1c4b_660_4_alg».proof.Proof.KernelValue
import proofs.«103829_g54271206752667_cont_9to1c4b_660_4_alg».proof.Proof.ReferenceValue
import Idealize.ShloMosaic.Adequacy
import Idealize.ShloMosaic.Init

noncomputable section

namespace Cert.Proof

open Idealize.ShloMosaic Idealize.ShloMosaic.TcCoe Idealize.SL.Sem

section Claims

variable [Cert.Kernel.Facts] [Cert.KernelIdeal.Facts] [Cert.ReferenceIdeal.Facts] [Cert.Pre_finite_inputs.Facts]

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the result array at
    adj · (max (adj · (x · W1), 0) · W2) of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.result_eq _ _ _ _

end Claims

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
